-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64x50000 : Shape := ⟨2, ![64, 50000]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64x50000 : S_.BroadcastsInDim S64x50000 (![] : Fin 0 → Fin S64x50000.rank)
  reducesTo_S64x50000_S_d0_1 : S64x50000.ReducesTo [0, 1] S_

variable [Facts]

def fn {F : FTy → Type} [FloatOps F] (main_arg0 : FVec F S4096x64 .f32) (main_arg1 : FVec F S64x50000 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64x50000 .f32 := Host.absf main_arg1
  let main_cst_0 : FVec F S_ .f32 := constant S_ .f32 0x7F800000#32
  let main_v5 : FVec F S64x50000 .f32 := broadcastInDim S64x50000 ![] bcast_S_S64x50000 main_cst_0
  let main_v6 : IVec S64x50000 1 := cmpf .olt main_v4 main_v5
  let main_c_1 : IVec S_ 1 := constantI S_ 1 1#1
  let main_v7 : IVec S_ 1 := (fun x v => Host.reduce IntOp.andi x v reducesTo_S64x50000_S_d0_1 h_S_) main_v6 main_c_1
  let main_v8 : IVec S_ 1 := andi main_v3 main_v7
  main_v8
-- ==== Kernel.lean ====
abbrev S4096x64 : Shape := ⟨2, ![4096, 64]⟩
abbrev S64x50000 : Shape := ⟨2, ![64, 50000]⟩
abbrev S_ : Shape := ⟨0, ![]⟩
abbrev S64x51200 : Shape := ⟨2, ![64, 51200]⟩
abbrev S4096x50000 : Shape := ⟨2, ![4096, 50000]⟩
abbrev S512x64 : Shape := ⟨2, ![512, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x2048 : Shape := ⟨2, ![1, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4096x64, .f32⟩
  | .hbm, ⟨1, _⟩ => ⟨S64x50000, .f32⟩
  | .hbm, ⟨2, _⟩ => ⟨S_, .i32⟩
  | .hbm, ⟨3, _⟩ => ⟨S_, .f32⟩
  | .hbm, ⟨4, _⟩ => ⟨S64x51200, .f32⟩
  | .hbm, ⟨5, _⟩ => ⟨S4096x50000, .f32⟩
  | .local _ .vmem, ⟨0, _⟩ => ⟨S512x64, .f32⟩
  | .local _ .vmem, ⟨1, _⟩ => ⟨S512x64, .f32⟩
  | .local _ .vmem, ⟨2, _⟩ => ⟨S64x2048, .f32⟩
  | .local _ .vmem, ⟨3, _⟩ => ⟨S64x2048, .f32⟩
  | .local _ .vmem, ⟨4, _⟩ => ⟨S512x2048, .f32⟩
  | .local _ .vmem, ⟨5, _⟩ => ⟨S512x2048, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S64x50000_S64x51200_000_012000 : S64x50000.Pads (![0, 0] : Fin 2 → Nat) ![0, 1200] ![0, 0] S64x51200
  h_S_ : 0 < S_.numel
  inb_S512x64_S512x64_0_0 : ∀ a, (![0, 0] : Fin 2 → Nat) a + S512x64.size a ≤ S512x64.size a
  h_S512x64 : 0 < S512x64.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S512x64_S512 : S512x64.Reduces [1] S512
  shapeCasts_S512_S512x1 : S512.ShapeCasts S512x1
  reduces_S64x2048_S2048 : S64x2048.Reduces [0] S2048
  shapeCasts_S2048_S1x2048 : S2048.ShapeCasts S1x2048
  bitsLt_bf16_f32 : FTy.bits .bf16 < FTy.bits .f32
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .f32 = 32 ∨ (Rect.block (s := S4096x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x51200.size a
  hwx0_1 : ∀ i : grid0.Coords, EltTy.bits .f32 = 32 ∨ (Rect.block (s := S64x51200) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x2048.size a < S4096x50000.size a
  hwx0_2 : ∀ i : grid0.Coords, EltTy.bits .f32 = 32 ∨ (Rect.unit (s := S4096x50000) (fun a => cc0_transform_2 i a * S512x2048.size a) (fun a => (Pipeline.Clip.of (cc0_transform_2 i a) (S512x2048.size a) (S4096x50000.size a)).extent (S512x2048.size a)) fun a => Pipeline.Clip.inb (Pipeline.Clip.ok_of (hstart0_2 i a))).WholeWords (EltTy.packing .f32)
  hwxs0_2 : ∀ i : grid0.Coords, EltTy.bits .f32 = 32 ∨ (Rect.unit (s := S512x2048) (fun _ => 0) (fun a => (Pipeline.Clip.of (cc0_transform_2 i a) (S512x2048.size a) (S4096x50000.size a)).extent (S512x2048.size a)) fun a => (Nat.zero_add _).trans_le (Pipeline.Clip.extent_le (Pipeline.Clip.ok_of (hstart0_2 i a)))).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_v1) S512x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64 : Shape := ⟨2, ![4096, 64]⟩
abbrev S64x50000 : Shape := ⟨2, ![64, 50000]⟩
abbrev S_ : Shape := ⟨0, ![]⟩
abbrev S4096 : Shape := ⟨1, ![4096]⟩
abbrev S4096x1 : Shape := ⟨2, ![4096, 1]⟩
abbrev S50000 : Shape := ⟨1, ![50000]⟩
abbrev S1x50000 : Shape := ⟨2, ![1, 50000]⟩
abbrev S4096x50000 : Shape := ⟨2, ![4096, 50000]⟩

abbrev nBuf : Space → Nat
  | .hbm => 22
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64x50000, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S64x50000, .f32⟩
  | .hbm, ⟨7, _⟩ => ⟨S_, .f32⟩
  | .hbm, ⟨8, _⟩ => ⟨S50000, .f32⟩
  | .hbm, ⟨9, _⟩ => ⟨S1x50000, .f32⟩
  | .hbm, ⟨10, _⟩ => ⟨S4096x50000, .f32⟩
  | .hbm, ⟨11, _⟩ => ⟨S4096x50000, .f32⟩
  | .hbm, ⟨12, _⟩ => ⟨S4096x50000, .f32⟩
  | .hbm, ⟨13, _⟩ => ⟨S4096x50000, .f32⟩
  | .hbm, ⟨14, _⟩ => ⟨S_, .f32⟩
  | .hbm, ⟨15, _⟩ => ⟨S4096x50000, .f32⟩
  | .hbm, ⟨16, _⟩ => ⟨S4096x50000, .f32⟩
  | .hbm, ⟨17, _⟩ => ⟨S4096x50000, .f32⟩
  | .hbm, ⟨18, _⟩ => ⟨S_, .f32⟩
  | .hbm, ⟨19, _⟩ => ⟨S4096x50000, .f32⟩
  | .hbm, ⟨20, _⟩ => ⟨S4096x50000, .f32⟩
  | .hbm, ⟨21, _⟩ => ⟨S4096x50000, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  reducesTo_S64x50000_S50000_d0 : S64x50000.ReducesTo [0] S50000
  bcast_S50000_S1x50000_1 : S50000.BroadcastsInDim S1x50000 (![1] : Fin 1 → Fin S1x50000.rank)
  bcast_S4096x1_S4096x50000_0_1 : S4096x1.BroadcastsInDim S4096x50000 (![0, 1] : Fin 2 → Fin S4096x50000.rank)
  bcast_S1x50000_S4096x50000_0_1 : S1x50000.BroadcastsInDim S4096x50000 (![0, 1] : Fin 2 → Fin S4096x50000.rank)
  bcast_S_S4096x50000 : S_.BroadcastsInDim S4096x50000 (![] : Fin 0 → Fin S4096x50000.rank)
  dot_S4096x64_S64x50000_S4096x50000_1_0_0_1_n_n_wf : DotDims.WF S4096x64 S64x50000 S4096x50000 [1] [0] [0] [1] [] []

variable [Facts₀]

def dot_S4096x64_S64x50000_S4096x50000_1_0_0_1_n_n : DotDims S4096x64 S64x50000 S4096x50000 where
  lhsContracting := [1]
  rhsContracting := [0]
  lhsNonContracting := [0]
  rhsNonContracting := [1]
  lhsBatch := []
  rhsBatch := []
  wf := dot_S4096x64_S64x50000_S4096x50000_1_0_0_1_n_n_wf

class Facts : Prop extends Facts₀ where

variable [Facts]
-- ==== Proof.Distance.lean ====
/-
  The function both programs compute, written once on the extended reals.

  For a point `a` and a centre `b` of 64 coordinates the FLOORED DISTANCE is

      flooredDist a b = √ max ( (Σₖ aₖ² + Σₖ bₖ²) − 2 · Σₖ aₖ·bₖ , ε ),

  the expansion of ‖a − b‖² with the three sums kept apart and in this grouping, the factor `2` and the floor `ε`
  the extended reals that the 32-bit patterns of `2.0` and of `1e-12` denote (the same two patterns in both programs,
  so neither is ever evaluated). The TABLE of a matrix `x` of 4096 points (rows) and a matrix `w` of 50000 centres
  (columns) has the floored distance of row `r` of `x` and column `n` of `w` at `(r, n)`.

  Nothing here asks the entries to be finite: on the extended reals the expression is read as it stands, with
  `+`, `·`, `−`, `max` and `√` the total operations of the ideal instance.
-/
import Idealize.ShloMosaic.PureOps.Ideal.Laws
import Idealize.ShloMosaic.Lib.ValueIdx

noncomputable section

open scoped BigOperators

namespace Cert.Distance

open Idealize.ShloMosaic Idealize.ShloMosaic.ValueIdx

/-- The floored distance of a point `a` and a centre `b`, each of 64 extended-real coordinates. -/
def flooredDist (a b : Fin 64 → EReal) : EReal :=
  Ideal.sqrt (max ((∑ k : Fin 64, a k * a k + ∑ k : Fin 64, b k * b k)
      - Ideal.ofBits .f32 0x40000000#32 * ∑ k : Fin 64, a k * b k) (Ideal.ofBits .f32 0x2B8CBCCC#32))

/-- Row `r` of a matrix of `R` points. -/
abbrev rowOf {R : Nat} (x : FVec Ideal ⟨2, ![R, 64]⟩ .f32) (r : Fin R) : Fin 64 → EReal := fun k => x (ix2 r k)

/-- Column `n` of a matrix of `N` centres. -/
abbrev colOf {N : Nat} (w : FVec Ideal ⟨2, ![64, N]⟩ .f32) (n : Fin N) : Fin 64 → EReal := fun k => w (ix2 k n)

/-- The table of floored distances between the rows of `x` and the columns of `w`. -/
def table (x : FVec Ideal ⟨2, ![4096, 64]⟩ .f32) (w : FVec Ideal ⟨2, ![64, 50000]⟩ .f32) :
    FVec Ideal ⟨2, ![4096, 50000]⟩ .f32 :=
  fun i => flooredDist (rowOf x (i 0)) (colOf w (i 1))

/-- The table at coordinates. -/
theorem table_ix2 (x : FVec Ideal ⟨2, ![4096, 64]⟩ .f32) (w : FVec Ideal ⟨2, ![64, 50000]⟩ .f32)
    (r : Fin 4096) (n : Fin 50000) : table x w (ix2 r n) = flooredDist (rowOf x r) (colOf w n) := rfl

end Cert.Distance

end
-- ==== Proof.ReferenceTable.lean ====
/-
  The reference computes the table of floored distances.

  Read at an entry `(r, n)`, the reference's last stage is `√ max (…, ε)` of
  `(0 + Σₖ x[r,k]·x[r,k]) + (0 + Σₖ w[k,n]·w[k,n]) − 2 · Σₖ x[r,k]·w[k,n]`: the two squared norms are host sums
  from the initial value `0` along the 64 coordinates (kept as a column `[4096,1]` and a row `[1,50000]` and
  broadcast over the table), the cross term is the matrix product of `x` and `w`. Dropping the two zeros, that is
  `flooredDist` of row `r` of `x` and column `n` of `w`.
-/
import proofs.«110765_j79671643341035_2_alg».proof.Proof.Gen.ReferenceIdeal.Read
import proofs.«110765_j79671643341035_2_alg».proof.Proof.Distance

noncomputable section

open scoped BigOperators

namespace Cert.ReferenceIdeal.RefValue

open Cert.ReferenceIdeal Cert.ReferenceIdeal.Read Idealize.ShloMosaic Idealize.ShloMosaic.ValueIdx Cert.Distance

/-- The squared norm of the points reads row `r`: through the two broadcasts and the sum's inserted coordinate. -/
theorem norm_x_idx (r : Fin 4096) (n : Fin 50000) (k : Fin 64) :
    idx_main_v1 (idx_main_v2 (idx_main_v7 (ix2 r n))) k = ix2 r k :=
  funext fun a => by match a with | ⟨0, _⟩ => rfl | ⟨1, _⟩ => rfl

/-- The squared norm of the centres reads column `n`. -/
theorem norm_w_idx (r : Fin 4096) (n : Fin 50000) (k : Fin 64) :
    idx_main_v4 (idx_main_v5 (idx_main_v8 (ix2 r n))) k = ix2 k n :=
  funext fun a => by match a with | ⟨0, _⟩ => rfl | ⟨1, _⟩ => rfl

/-- The product's left factor at `(r, n)` and `k` is `x[r, k]`, -/
theorem prod_x_idx (r : Fin 4096) (n : Fin 50000) (k : Fin 64) : lidx_main_v6 (ix2 r n) k = ix2 r k :=
  funext fun a => by match a with | ⟨0, _⟩ => rfl | ⟨1, _⟩ => rfl

/-- and its right factor `w[k, n]`. -/
theorem prod_w_idx (r : Fin 4096) (n : Fin 50000) (k : Fin 64) : ridx_main_v6 (ix2 r n) k = ix2 k n :=
  funext fun a => by match a with | ⟨0, _⟩ => rfl | ⟨1, _⟩ => rfl

/-- THE REFERENCE'S RESULT IS THE TABLE: at every entry the last stage is the floored distance of the row of `x` and
    the column of `w` (the sums' initial zeros dropped). -/
theorem reference_table (x : FVec Ideal S4096x64 .f32) (w : FVec Ideal S64x50000 .f32) :
    val_main_v15 (F := Ideal) x w = table x w := by
  funext i
  obtain ⟨r, n, rfl⟩ : ∃ (r : Fin 4096) (n : Fin 50000), i = ix2 r n := ⟨i 0, i 1, eq_ix2 i⟩
  rw [val_main_v15_apply, val_main_v14_apply, val_main_v12_apply, val_main_v13_apply, val_main_cst_2_apply,
    val_main_v9_apply, val_main_v11_apply, val_main_v10_apply, val_main_cst_1_apply, val_main_v6_apply,
    val_main_v7_apply, val_main_v2_apply, val_main_v1_apply, val_main_v8_apply, val_main_v5_apply, val_main_v4_apply,
    val_main_cst_apply, val_main_cst_0_apply, table_ix2]
  simp only [val_main_v0_apply, val_main_v3_apply, norm_x_idx, norm_w_idx, prod_x_idx, prod_w_idx]
  unfold flooredDist
  simp only [Ideal.hostUnary_sqrt_def, Ideal.maximumf_def, Ideal.subf_def, Ideal.addf_def, Ideal.mulf_def,
    Ideal.ofBits_def, Ideal.ofBits_zero_f32, zero_add]

end Cert.ReferenceIdeal.RefValue

end
-- ==== Proof.LibColumnForms.lean ====
/-
  Two layout operations read at an index given by coordinates, for any extents `a`, `b` and any element type: the
  COLUMN forms that a sum kept as a column (`keepdims` along the last axis) goes through.

  • a vector `[a]` viewed as a column `[a, 1]` reads, at `(i, u)`, the vector at `i` (the unit coordinate `u` is `0`, so
    both indices have row-major position `i`);
  • a column `[a, 1]` broadcast along the second axis to `[a, b]` reads, at `(p, c)`, the column at `(p, 0)`: the
    operand's second axis is a unit axis, so its coordinate is `0` whatever `c` is, and its first axis keeps `p`
    (when `a` itself is `1` the only `p` is `0`).

  The row forms (`[a]` as `[1, a]`, `[1, b]` over `[a, b]`) are the library's `shapeCast_a_1a_apply` and
  `broadcastTo_1b_ab_apply`.
-/
import Idealize.ShloMosaic.Lib.ValueLayout

namespace Cert.ColumnForms

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.KernelEntry.lean ====
/-
  One entry of what the kernel's body stores.

  The body holds a block `x0` of 512 points (rows, 64 coordinates each) and a block `x1` of 2048 centres (columns).
  Read at an entry `(p, q)` of the stored [512, 2048] block, its value is the floored distance of row `p` of `x0` and
  column `q` of `x1`:

  • the squared norm of the points is a lane sum along the 64 coordinates, kept as a column [512, 1] and broadcast
    along the centres: at `(p, q)` it is `Σₖ x0[p,k]·x0[p,k]`;
  • the squared norm of the centres is a sum along the first axis, kept as a row [1, 2048] and broadcast along the
    points: at `(p, q)` it is `Σₖ x1[k,q]·x1[k,q]`;
  • the cross term is the matrix product of the two blocks into a zero accumulator, its operands narrowed to sixteen
    bits first, which on the extended reals changes nothing: at `(p, q)` it is `Σₖ x0[p,k]·x1[k,q]`;
  • the rest is entrywise: sum of the norms, minus twice the cross term, floored, square root.
-/
import proofs.«110765_j79671643341035_2_alg».proof.Proof.Gen.KernelIdeal.Skeleton
import proofs.«110765_j79671643341035_2_alg».proof.Proof.Distance
import proofs.«110765_j79671643341035_2_alg».proof.Proof.LibColumnForms
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Distance Cert.ColumnForms

/-! ## The two squared norms -/

/-- A lane sum along the 64 coordinates of a [512, 64] block, kept as a column and broadcast over 2048 columns, is at
    `(p, q)` the sum of row `p`. -/
theorem rowSum_entry (y : FVec Ideal S512x64 .f32) (hφ : FKind.Formats .f32)
    (hacc : (0x00000000#32 : BitVec 32) = FKind.add.neutral .f32 hφ) (p : Fin 512) (q : Fin 2048) :
    broadcastTo S512x2048 (shapeCast S512x1 (multiReduction .add [1] S512 y 0x00000000#32 reduces_S512x64_S512 hφ hacc)
        shapeCasts_S512_S512x1) broadcasts_S512x1_S512x2048 (ix2 p q) = ∑ k : Fin 64, y (ix2 p k) :=
  (broadcastTo_a1_ab_apply _ broadcasts_S512x1_S512x2048 p q).trans <|
    (shapeCast_a_a1_apply _ shapeCasts_S512_S512x1 p (0 : Fin 1)).trans <|
      (Ideal.multiReduction_add_single y 0x00000000#32 reduces_S512x64_S512 hφ hacc (ix1 p)).trans <|
        Finset.sum_congr rfl fun k _ => congrArg y (funext fun a => Fin.ext (by
          match a with | ⟨0, _⟩ => rfl | ⟨1, _⟩ => rfl))

/-- A sum along the first axis of a [64, 2048] block, kept as a row and broadcast over 512 rows, is at `(p, q)` the sum
    of column `q`. -/
theorem colSum_entry (y : FVec Ideal S64x2048 .f32) (hφ : FKind.Formats .f32)
    (hacc : (0x00000000#32 : BitVec 32) = FKind.add.neutral .f32 hφ) (p : Fin 512) (q : Fin 2048) :
    broadcastTo S512x2048 (shapeCast S1x2048 (multiReduction .add [0] S2048 y 0x00000000#32 reduces_S64x2048_S2048 hφ hacc)
        shapeCasts_S2048_S1x2048) broadcasts_S1x2048_S512x2048 (ix2 p q) = ∑ k : Fin 64, y (ix2 k q) :=
  (broadcastTo_1b_ab_apply _ broadcasts_S1x2048_S512x2048 p q).trans <|
    (shapeCast_a_1a_apply _ shapeCasts_S2048_S1x2048 (0 : Fin 1) q).trans <|
      (Ideal.multiReduction_add_single y 0x00000000#32 reduces_S64x2048_S2048 hφ hacc (ix1 q)).trans <|
        Finset.sum_congr rfl fun k _ => congrArg y (funext fun a => Fin.ext (by
          match a with | ⟨0, _⟩ => rfl | ⟨1, _⟩ => rfl))

/-! ## The cross term -/

/-- The product's left operand index at output `j` and contraction `c`: first coordinate `j`'s row, -/
theorem lhs_row (j : S512x2048.Idx) (c : dot_S512x64_S64x2048_S512x2048_1_0_0_1_n_n.contr.Idx) : (dot_S512x64_S64x2048_S512x2048_1_0_0_1_n_n.lhsIdx j c 0).val = (j 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
/-- second coordinate the contraction's; -/
theorem lhs_contr (j : S512x2048.Idx) (c : dot_S512x64_S64x2048_S512x2048_1_0_0_1_n_n.contr.Idx) : (dot_S512x64_S64x2048_S512x2048_1_0_0_1_n_n.lhsIdx j c 1).val = (c ⟨0, by decide⟩).val :=
  dot_S512x64_S64x2048_S512x2048_1_0_0_1_n_n.lhsIdx_val_of_single rfl j c
/-- the right operand index: first coordinate the contraction's, -/
theorem rhs_contr (j : S512x2048.Idx) (c : dot_S512x64_S64x2048_S512x2048_1_0_0_1_n_n.contr.Idx) : (dot_S512x64_S64x2048_S512x2048_1_0_0_1_n_n.rhsIdx j c 0).val = (c ⟨0, by decide⟩).val :=
  dot_S512x64_S64x2048_S512x2048_1_0_0_1_n_n.rhsIdx_val_of_single rfl j c
/-- second coordinate `j`'s column. -/
theorem rhs_col (j : S512x2048.Idx) (c : dot_S512x64_S64x2048_S512x2048_1_0_0_1_n_n.contr.Idx) : (dot_S512x64_S64x2048_S512x2048_1_0_0_1_n_n.rhsIdx j c 1).val = (j 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- The matrix product of a [512, 64] block and a [64, 2048] block into a zero accumulator is at `(p, q)` the sum over
    the 64 coordinates of row `p` times column `q`. -/
theorem cross_entry (a : FVec Ideal S512x64 .bf16) (b : FVec Ideal S64x2048 .bf16) (p : Fin 512) (q : Fin 2048) :
    matmul dot_S512x64_S64x2048_S512x2048_1_0_0_1_n_n none a b (constant (F := Ideal) S512x2048 .f32 0x00000000#32) (ix2 p q)
      = ∑ k : Fin 64, a (ix2 p k) * b (ix2 k q) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p q) ((contrEquiv1 dot_S512x64_S64x2048_S512x2048_1_0_0_1_n_n 64 rfl rfl).symm k) = ix2 p k := funext fun ax => Fin.ext (by
    match ax with
    | ⟨0, _⟩ => exact lhs_row _ _
    | ⟨1, _⟩ => exact (lhs_contr _ _).trans hk)
  have er : dot_S512x64_S64x2048_S512x2048_1_0_0_1_n_n.rhsIdx (ix2 p q) ((contrEquiv1 dot_S512x64_S64x2048_S512x2048_1_0_0_1_n_n 64 rfl rfl).symm k) = ix2 k q := funext fun ax => Fin.ext (by
    match ax with
    | ⟨0, _⟩ => exact (rhs_contr _ _).trans hk
    | ⟨1, _⟩ => exact rhs_col _ _)
  rw [el, er]

/-! ## The stored value at an entry -/

/-- WHAT THE BODY STORES, AT `(p, q)`: the floored distance of row `p` of the points' block and column `q` of the
    centres' block. -/
theorem payload_entry (x0 : Vec Ideal S512x64 .f32) (x1 : Vec Ideal S64x2048 .f32) (p : Fin 512) (q : Fin 2048) :
    k0_pay1 (F := Ideal) x0 x1 (ix2 p q) = flooredDist (rowOf x0 p) (colOf x1 q) := by
  have hsame : shapeCast S64x2048 x1 shapeCasts_S64x2048_S64x2048 = x1 := shapeCast_self x1 _
  unfold k0_pay1 flooredDist
  rw [hsame]
  refine congrArg Ideal.sqrt (congrArg₂ max (congrArg₂ (· - ·) (congrArg₂ (· + ·) ?_ ?_) (congrArg (_ * ·) ?_)) rfl)
  · exact rowSum_entry (mulf x0 x0) _ _ p q
  · exact colSum_entry (mulf x1 x1) _ _ p q
  · exact cross_entry (truncf .bf16 x0 bitsLt_bf16_f32) (truncf .bf16 x1 bitsLt_bf16_f32) p q

end Cert.KernelIdeal.BlockValue

end
-- ==== Proof.PaddedWeight.lean ====
/-
  The centres as the kernel's region finds them.

  Before the region the program pads the matrix of centres `weight` [64, 50000] on the right with 1200 columns of the
  value `0` (an integer zero converted to a float), to [64, 51200] = 25 blocks of 2048 columns, so that every block the
  region fetches lies inside the array it reads. A column `n` below 50000 of the padded matrix is column `n` of
  `weight`: such an index lies inside the operand on both axes (no low padding, no interior padding). The padded columns
  are never needed below: no entry of the result array depends on them.
-/
import proofs.«110765_j79671643341035_2_alg».proof.Proof.Gen.KernelIdeal.Frame
import Idealize.ShloMosaic.Lib.KernelVsHost
import Idealize.ShloMosaic.Lib.StableHlo.Run
import Idealize.ShloMosaic.Lib.ValueIdx

noncomputable section

namespace Cert.KernelIdeal.TableValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- When the region is entered, the buffer the centres' window reads holds `weight` padded with 1200 columns. -/
theorem padded_weight (c : Dev nD) :
    (V m c main_v0 : S64x51200.Idx → Ideal .f32)
      = pad S64x51200 ![0, 0] ![0, 1200] ![0, 0] (m ((c : Thread nD τ).loc main_arg1))
          (sitofp (F := Ideal) .f32 (constantI S_ 32 0#32)) pads_S64x50000_S64x51200_000_012000 h_S_ := by
  dsimp only [V]
  simp only [hostOps0, hostOps0_1, List.flatten_cons, List.flatten_nil, List.append_nil, List.cons_append,
    List.nil_append]
  after_results
  rfl

/-- Entry `(k, n)` of the padded matrix, for a column `n` of `weight`, is `weight[k, n]`. -/
theorem padded_entry (c : Dev nD) (k : Fin 64) (n' : Fin 51200) (n : Fin 50000) (h : n'.val = n.val) :
    V m c main_v0 (ix2 k n') = m ((c : Thread nD τ).loc main_arg1) (ix2 k n) := by
  refine (congrFun (padded_weight m c) (ix2 k n')).trans ?_
  exact pad_apply_of_inside _ _ _ _ _ pads_S64x50000_S64x51200_000_012000 h_S_ (ix2 k n') (ix2 k n) (fun a => by
    match a with
    | ⟨0, _⟩ => show k.val = 0 + k.val * (0 + 1); omega
    | ⟨1, _⟩ => show n'.val = 0 + n.val * (0 + 1); omega)

end Cert.KernelIdeal.TableValue

end
-- ==== Proof.TableBlocks.lean ====
/-
  From the blocks the grid points write back to the whole table.

  The grid has 25 × 8 points `(κ, β)`: point `(κ, β)` fetches rows `512·β … 512·β + 511` of the points `x` and columns
  `2048·κ … 2048·κ + 2047` of the padded centres, and writes back the block of the result at rows `512·β …` and columns
  `2048·κ …`. The result has 50000 = 24·2048 + 848 columns, so for `κ = 24` only the first 848 columns of the stored
  block are written back (the block overhangs the array's end; the others lie inside it).

  • Entry `(p, q)` of what a point stores is the floored distance of row `p` of its points' block and column `q` of its
    centres' block (the body's stored value at an entry); row `p` of the points' block is row `512·β + p` of `x`, and
    column `q` of the centres' block, WHEN `2048·κ + q < 50000`, is column `2048·κ + q` of `weight` (a column of the
    padded matrix below 50000). Every entry that is written back satisfies that bound: it lands inside the result.
    So what a point writes back is its block of the TABLE of `x` and `weight`.
  • Every entry `(r, n)` of the result lies in the block of the point `(n / 2048, r / 512)`.
  Hence the result array ends holding the table.
-/
import proofs.«110765_j79671643341035_2_alg».proof.Proof.Gen.KernelIdeal.Value
import proofs.«110765_j79671643341035_2_alg».proof.Proof.KernelEntry
import proofs.«110765_j79671643341035_2_alg».proof.Proof.PaddedWeight

set_option maxRecDepth 16384

noncomputable section

namespace Cert.KernelIdeal.TableValue

open Cert.KernelIdeal Cert.KernelIdeal.Gen Idealize.ShloMosaic Idealize.ShloMosaic.TcCoe Idealize.SL.Sem
open Idealize.ShloMosaic.ValueIdx Cert.Distance
open Idealize.ShloMosaic.Pipeline (Dat)

variable (m : (ℓ : Loc nD τ sig) → Buf (Elt Ideal) ℓ) (ρ : Dev nD → PrngReg)

/-- The table of the points and the centres as launched on core `c`, as contents of the result's buffer. -/
abbrev tableOn (c : Dev nD) : Buf (Elt Ideal) ((c : Thread nD τ).loc main_v1) :=
  table (m ((c : Thread nD τ).loc main_arg0)) (m ((c : Thread nD τ).loc main_arg1))

/-! ## What the body leaves in the result's staging buffer -/

theorem zeros : (![0, 0] : Fin 2 → Nat) = fun _ => 0 := funext fun a => by fin_cases a <;> rfl

/-- The body loads its two whole blocks and stores one whole block: the staging buffer ends holding the stored value. -/
theorem stored_eq_payload (x0 : Vec Ideal S512x64 .f32) (x1 : Vec Ideal S64x2048 .f32) :
    out0_2 x0 x1 = k0_pay1 x0 x1 := by
  unfold out0_2
  rw [View.canon_unit_zero zeros]
  simp only [View.ld_unit_zero (S := S512x64) zeros, View.ld_unit_zero (S := S64x2048) zeros]

/-! ## The index maps, decided over the 200 grid points -/

/-- The points' window follows the result's row block and the centres' window its column block; the row block is
    one of 8 and the column block one of 25. -/
theorem index_relations : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 24 :=
  (by decide +kernel : ∀ t : Fin grid0.N, _)

/-- How much of its block a point writes back: all 512 rows; all 2048 columns, except 848 for the last column block. -/
theorem block_extents : ∀ t : Fin cfg0.N, win0_2.xsize (grid0.coords t) (0 : Fin 2) = 512
    ∧ ((win0_2.index t (1 : Fin 2) < 24 ∧ win0_2.xsize (grid0.coords t) (1 : Fin 2) = 2048)
      ∨ (win0_2.index t (1 : Fin 2) = 24 ∧ win0_2.xsize (grid0.coords t) (1 : Fin 2) = 848)) :=
  (by decide +kernel : ∀ t : Fin grid0.N, _)

/-- Every (row block, column block) pair is some point's. -/
theorem index_onto : ∀ (b : Fin 8) (k : Fin 25), ∃ t : Fin cfg0.N, win0_2.index t = ![b.val, k.val] :=
  (by decide +kernel : ∀ (b : Fin 8) (k : Fin 25), ∃ t : Fin grid0.N, win0_2.index t = ![b.val, k.val])

/-! ## The input blocks read at an entry -/

/-- Row `p` of the points' block at point `t` is row `512·β + p` of the points. -/
theorem points_block (c : Dev nD) (t : Fin cfg0.N) (p : Fin 512) (k : Fin 64) (r : Fin 4096)
    (hr : r.val = win0_2.index t (0 : Fin 2) * 512 + p.val) :
    iblk m c 0 t (ix2 p k) = m ((c : Thread nD τ).loc main_arg0) (ix2 r k) := by
  show V m c main_arg0 (((cfg0.win 0).blk t).view.emb (ix2 p k)) = _
  rw [V_main_arg0]
  obtain ⟨e0, e1, -⟩ := index_relations t
  refine congrArg (m ((c : Thread nD τ).loc main_arg0)) (funext fun a => Fin.ext ?_)
  match a with
  | ⟨0, _⟩ => show win0_0.index t (0 : Fin 2) * 512 + 1 * p.val = r.val; omega
  | ⟨1, _⟩ => show win0_0.index t (1 : Fin 2) * 64 + 1 * k.val = k.val; omega

/-- Column `q` of the centres' block at point `t`, when it is a column `n = 2048·κ + q` of `weight`, is that column. -/
theorem centres_block (c : Dev nD) (t : Fin cfg0.N) (k : Fin 64) (q : Fin 2048) (n : Fin 50000)
    (hn : n.val = win0_2.index t (1 : Fin 2) * 2048 + q.val) :
    iblk m c 1 t (ix2 k q) = m ((c : Thread nD τ).loc main_arg1) (ix2 k n) := by
  obtain ⟨-, -, e2, e3, -⟩ := index_relations t
  have hlt : n.val < 51200 := Nat.lt_trans n.isLt (by decide)
  have hidx : ((cfg0.win 1).blk t).view.emb (ix2 k q) = (ix2 k (⟨n.val, hlt⟩ : Fin 51200) : S64x51200.Idx) :=
    funext fun a => Fin.ext (by
      match a with
      | ⟨0, _⟩ => show win0_1.index t (0 : Fin 2) * 64 + 1 * k.val = k.val; omega
      | ⟨1, _⟩ => show win0_1.index t (1 : Fin 2) * 2048 + 1 * q.val = n.val; omega)
  show V m c main_v0 (((cfg0.win 1).blk t).view.emb (ix2 k q)) = _
  rw [hidx]
  exact padded_entry m c k ⟨n.val, hlt⟩ n rfl

/-! ## What a point writes back -/

/-- Entry `(p, q)` of what point `t` leaves in the result's staging buffer, when it lands on entry `(r, n)` of the
    result, is the table's entry there. -/
theorem stored_entry (c : Dev nD) (t : Fin cfg0.N) (p : Fin 512) (q : Fin 2048) (r : Fin 4096) (n : Fin 50000)
    (hr : r.val = win0_2.index t (0 : Fin 2) * 512 + p.val) (hn : n.val = win0_2.index t (1 : Fin 2) * 2048 + q.val) :
    out0_2 (iblk m c 0 t) (iblk m c 1 t) (ix2 p q) = tableOn m c (ix2 r n) := by
  refine (congrFun (stored_eq_payload (iblk m c 0 t) (iblk m c 1 t)) (ix2 p q)).trans ?_
  refine (BlockValue.payload_entry (iblk m c 0 t) (iblk m c 1 t) p q).trans ?_
  refine Eq.trans ?_ (table_ix2 (m ((c : Thread nD τ).loc main_arg0)) (m ((c : Thread nD τ).loc main_arg1)) r n).symm
  exact congrArg₂ flooredDist (funext fun k => points_block m c t p k r hr) (funext fun k => centres_block m c t k q n hn)

/-- WHAT POINT `t` WRITES BACK is its block of the table. -/
theorem flushed_table (c : Dev nD) (t : Fin cfg0.N) :
    (dats m 0 c).flushed 2 t = ((cfg0.win 2).blk t).view.read (Elt Ideal) (tableOn m c) := by
  rw [Value.flushed2]
  funext j
  have hp : (j 0).val < 512 := Nat.lt_of_lt_of_le (j 0).isLt (win0_2.xsize_le (grid0.coords t) 0)
  have hq : (j 1).val < 2048 := Nat.lt_of_lt_of_le (j 1).isLt (win0_2.xsize_le (grid0.coords t) 1)
  have hx : (cfg0.win 2).xinj (grid0.coords t) j = ix2 (⟨(j 0).val, hp⟩ : Fin 512) (⟨(j 1).val, hq⟩ : Fin 2048) :=
    funext fun a => Fin.ext (by match a with | ⟨0, _⟩ => rfl | ⟨1, _⟩ => rfl)
  have hi := eq_ix2 (((cfg0.win 2).blk t).view.emb j)
  show out0_2 (iblk m c 0 t) (iblk m c 1 t) ((cfg0.win 2).xinj (grid0.coords t) j)
    = tableOn m c (((cfg0.win 2).blk t).view.emb j)
  refine (congrArg (out0_2 (iblk m c 0 t) (iblk m c 1 t)) hx).trans ?_
  refine Eq.trans ?_ (congrArg (tableOn m c) hi.symm)
  exact stored_entry m c t ⟨(j 0).val, hp⟩ ⟨(j 1).val, hq⟩ _ _
    (by show win0_2.index t (0 : Fin 2) * 512 + 1 * (j 0).val = win0_2.index t (0 : Fin 2) * 512 + (j 0).val; omega)
    (by show win0_2.index t (1 : Fin 2) * 2048 + 1 * (j 1).val = win0_2.index t (1 : Fin 2) * 2048 + (j 1).val; omega)

/-! ## The blocks cover the result -/

/-- An entry of the result is in point `t`'s block iff each coordinate is in the written-back range on its axis. -/
theorem mem_block (t : Fin cfg0.N) (i : S4096x50000.Idx) :
    i ∈ ((cfg0.win 2).blk t).view.set ↔ ∀ a : Fin 2, win0_2.index t a * S512x2048.size a ≤ (i a).val
      ∧ (i a).val < win0_2.index t a * S512x2048.size a + win0_2.xsize (grid0.coords t) a := by
  show i ∈ ((View.whole main_v1).slice (win0_2.rect t)).set ↔ _
  rw [View.set_slice_whole, Rect.mem_set_unit]
  exact Iff.rfl

/-- Every entry `(r, n)` is in the block of the point with row block `r / 512` and column block `n / 2048`. -/
theorem covered (i : S4096x50000.Idx) :
    ∃ t : Fin cfg0.N, (cfg0.win 2).flush t = true ∧ i ∈ ((cfg0.win 2).blk t).view.set := by
  have hi0 : (i 0).val < 4096 := (i 0).isLt
  have hi1 : (i 1).val < 50000 := (i 1).isLt
  obtain ⟨t, ht⟩ := index_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  obtain ⟨x0, x1⟩ := block_extents t
  refine ⟨t, flush0_2 t, ?_⟩
  rw [mem_block]
  intro a
  match a with
  | ⟨0, _⟩ =>
    show win0_2.index t (0 : Fin 2) * 512 ≤ (i 0).val
      ∧ (i 0).val < win0_2.index t (0 : Fin 2) * 512 + win0_2.xsize (grid0.coords t) (0 : Fin 2)
    rw [x0]; omega
  | ⟨1, _⟩ =>
    show win0_2.index t (1 : Fin 2) * 2048 ≤ (i 1).val
      ∧ (i 1).val < win0_2.index t (1 : Fin 2) * 2048 + win0_2.xsize (grid0.coords t) (1 : Fin 2)
    rcases x1 with ⟨h, e⟩ | ⟨h, e⟩ <;> rw [e] <;> omega

/-! ## The result array, and the run -/

/-- THE RESULT ARRAY after the run is the table. -/
theorem final_table (c : Dev nD) : (dats m 0 c).arrAt 2 cfg0.N = tableOn m c :=
  (dats m 0 c).arrAt_eq_of_cover 2 (tableOn m c) (fun t _ => flushed_table m c t) covered

/-- The kernel's run: every weakly fair execution terminates with the result array at the table of the arguments and
    the arguments unchanged. -/
theorem run : θ_run defs (onTc (τ := τ) (main (F := Ideal))) ⟨m, fun _ => 0, ρ⟩ fun r => ∀ c : Dev nD,
      r.2.mem ((c : Thread nD τ).loc main_v1) = tableOn m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_table m c), (h c).2⟩) (Value.run_blocks m ρ)

end Cert.KernelIdeal.TableValue

end
-- ==== Proof.lean ====
/-
  Pairwise distances between 4096 points and 50000 centres of 64 coordinates, computed by the expansion
  ‖a − b‖² = ‖a‖² + ‖b‖² − 2·a·b with a floor before the root:

      out[r, n] = √ max ( (Σₖ x[r,k]² + Σₖ w[k,n]²) − 2 · Σₖ x[r,k]·w[k,n] , ε ).

  The reference computes this on the whole arrays. The kernel pads `w` with 1200 zero columns to 25 blocks of 2048
  columns and runs a 25 × 8 grid; each point computes the same expression on a block of 512 rows of `x` and a block of
  2048 columns of the padded `w` — the cross term a matrix product of operands narrowed to sixteen bits — and writes
  its [512, 2048] block of the result back, cut at the result's last column for the last column block.

  On the extended reals the two programs are ONE function of `x` and `w`, `Cert.Distance.table`: a change of float
  format is the identity, a matrix product and a lane sum are the plain sums over the 64 coordinates, both programs
  group the three sums alike and use the same bit patterns for `2` and for the floor `ε`, and a padded column never
  reaches the result (every entry written back lies inside the result, hence reads a column of `w` itself). No
  algebraic law is used beyond `0 + s = s` for the host sums' initial value, so finiteness of the inputs is never needed.

  Proof/Distance.lean states the function; Proof/ReferenceTable.lean shows the reference's last stage is it;
  Proof/KernelEntry.lean reads the body's stored value at an entry; Proof/PaddedWeight.lean reads the padded
  centres; Proof/TableBlocks.lean goes from what each grid point writes back to the whole result array. Here the five
  claims are put together: the two kernels' frames are their generated frame theorems, the reference's frame is its
  generated run with the result dropped, the idealization rewrote nothing, and the two runs end at the same table.
-/
import proofs.«110765_j79671643341035_2_alg».proof.Defs
import proofs.«110765_j79671643341035_2_alg».proof.Proof.Gen.Kernel
import proofs.«110765_j79671643341035_2_alg».proof.Proof.Gen.Kernel.Skeleton
import proofs.«110765_j79671643341035_2_alg».proof.Proof.Gen.Kernel.Launch
import proofs.«110765_j79671643341035_2_alg».proof.Proof.Gen.Kernel.Points
import proofs.«110765_j79671643341035_2_alg».proof.Proof.Gen.Kernel.Frame
import proofs.«110765_j79671643341035_2_alg».proof.Proof.Gen.KernelIdeal
import proofs.«110765_j79671643341035_2_alg».proof.Proof.Gen.KernelIdeal.Skeleton
import proofs.«110765_j79671643341035_2_alg».proof.Proof.Gen.KernelIdeal.Launch
import proofs.«110765_j79671643341035_2_alg».proof.Proof.Gen.KernelIdeal.Points
import proofs.«110765_j79671643341035_2_alg».proof.Proof.Gen.KernelIdeal.Frame
import proofs.«110765_j79671643341035_2_alg».proof.Proof.Gen.ReferenceIdeal
import proofs.«110765_j79671643341035_2_alg».proof.Proof.Gen.Pre_finite_inputs
import proofs.«110765_j79671643341035_2_alg».proof.Proof.Gen.KernelIdeal.Value
import proofs.«110765_j79671643341035_2_alg».proof.Proof.Gen.ReferenceIdeal.Run
import proofs.«110765_j79671643341035_2_alg».proof.Proof.Gen.ReferenceIdeal.Read
import proofs.«110765_j79671643341035_2_alg».proof.Proof.ReferenceTable
import proofs.«110765_j79671643341035_2_alg».proof.Proof.TableBlocks
import Idealize.ShloMosaic.Adequacy
import Idealize.ShloMosaic.Init

noncomputable section

namespace Cert.Proof

open Idealize.ShloMosaic Idealize.ShloMosaic.TcCoe Idealize.SL.Sem

/-- The kernel as printed runs, terminates and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the points and the centres, both programs end with the table of floored distances
    of those points and centres in their result arrays: the kernel block by block, the reference entry by entry. -/
theorem same_table : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.TableValue.tableOn m c, Cert.KernelIdeal.TableValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v15_eq _ _).trans (Cert.ReferenceIdeal.RefValue.reference_table _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, same_table⟩

end Cert.Proof

end
